-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x17x256x256 : Shape := ⟨4, ![64, 17, 256, 256]⟩
abbrev S_ : Shape := ⟨0, ![]⟩

class Facts : Prop where
  bcast_S_S64x17x256x256 : S_.BroadcastsInDim S64x17x256x256 (![] : Fin 0 → Fin S64x17x256x256.rank)
  reducesTo_S64x17x256x256_S_d0_1_2_3 : S64x17x256x256.ReducesTo [0, 1, 2, 3] S_
  h_S_ : 0 < S_.numel

variable [Facts]

def fn {F : FTy → Type} [FloatOps F] (main_arg0 : FVec F S64x17x256x256 .f32) (main_arg1 : FVec F S64x17x256x256 .f32) : IVec S_ 1 :=
  let main_v0 : FVec F S64x17x256x256 .f32 := Host.absf main_arg0
  let main_cst : FVec F S_ .f32 := constant S_ .f32 0x7F800000#32
  let main_v1 : FVec F S64x17x256x256 .f32 := broadcastInDim S64x17x256x256 ![] bcast_S_S64x17x256x256 main_cst
  let main_v2 : IVec S64x17x256x256 1 := cmpf .olt main_v0 main_v1
  let main_c : IVec S_ 1 := constantI S_ 1 1#1
  let main_v3 : IVec S_ 1 := (fun x v => Host.reduce IntOp.andi x v reducesTo_S64x17x256x256_S_d0_1_2_3 h_S_) main_v2 main_c
  let main_v4 : FVec F S64x17x256x256 .f32 := Host.absf main_arg1
  let main_cst_0 : FVec F S_ .f32 := constant S_ .f32 0x7F800000#32
  let main_v5 : FVec F S64x17x256x256 .f32 := broadcastInDim S64x17x256x256 ![] bcast_S_S64x17x256x256 main_cst_0
  let main_v6 : IVec S64x17x256x256 1 := cmpf .olt main_v4 main_v5
  let main_c_1 : IVec S_ 1 := constantI S_ 1 1#1
  let main_v7 : IVec S_ 1 := (fun x v => Host.reduce IntOp.andi x v reducesTo_S64x17x256x256_S_d0_1_2_3 h_S_) main_v6 main_c_1
  let main_v8 : IVec S_ 1 := andi main_v3 main_v7
  main_v8
-- ==== Kernel.lean ====
abbrev S64x17x256x256 : Shape := ⟨4, ![64, 17, 256, 256]⟩
abbrev S1x1 : Shape := ⟨2, ![1, 1]⟩
abbrev S2x17x256x256 : Shape := ⟨4, ![2, 17, 256, 256]⟩
abbrev S1x2x17x256x256 : Shape := ⟨5, ![1, 2, 17, 256, 256]⟩
abbrev S1 : Shape := ⟨1, ![1]⟩
abbrev S1x1x1x1x1 : Shape := ⟨5, ![1, 1, 1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S64x17x256x256, .f32⟩
  | .hbm, ⟨1, _⟩ => ⟨S64x17x256x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S2x17x256x256, .f32⟩
  | .local _ .vmem, ⟨1, _⟩ => ⟨S2x17x256x256, .f32⟩
  | .local _ .vmem, ⟨2, _⟩ => ⟨S2x17x256x256, .f32⟩
  | .local _ .vmem, ⟨3, _⟩ => ⟨S2x17x256x256, .f32⟩
  | .local _ .vmem, ⟨4, _⟩ => ⟨S1x1, .f32⟩
  | .local _ .vmem, ⟨5, _⟩ => ⟨S1x1, .f32⟩
  | _, _ => ⟨S64x17x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_12 : BitVec 32 := 0#32
  let v19 : BitVec 1 := Scalar.cmpi .ne v18 c0_i32_12
  v19

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x17x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x17x256x256_S2x17x256x256_0_0_0_0 : ∀ a, (![0, 0, 0, 0] : Fin 4 → Nat) a + S2x17x256x256.size a ≤ S2x17x256x256.size a
  h_S2x17x256x256 : 0 < S2x17x256x256.numel
  shapeCasts_S2x17x256x256_S1x2x17x256x256 : S2x17x256x256.ShapeCasts S1x2x17x256x256
  reduces_S1x2x17x256x256_S1 : S1x2x17x256x256.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x17x256x256.size a ≤ S64x17x256x256.size a
  hwx0_0 : ∀ i : grid0.Coords, EltTy.bits .f32 = 32 ∨ (Rect.block (s := S64x17x256x256) S2x17x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x17x256x256.size a ≤ S64x17x256x256.size a
  hwx0_1 : ∀ i : grid0.Coords, EltTy.bits .f32 = 32 ∨ (Rect.block (s := S64x17x256x256) S2x17x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2x17x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x17x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x17x256x256 : Shape := ⟨4, ![64, 17, 256, 256]⟩
abbrev S_ : Shape := ⟨0, ![]⟩
abbrev S64x17 : Shape := ⟨2, ![64, 17]⟩

abbrev nBuf : Space → Nat
  | .hbm => 15
  | .vmem => 0
  | .smem => 0
  | _ => 0

abbrev bufTy : (tb : Table) → Fin (tcTables nBuf tb) → BufTy
  | .hbm, ⟨0, _⟩ => ⟨S64x17x256x256, .f32⟩
  | .hbm, ⟨1, _⟩ => ⟨S64x17x256x256, .f32⟩
  | .hbm, ⟨2, _⟩ => ⟨S64x17x256x256, .f32⟩
  | .hbm, ⟨3, _⟩ => ⟨S64x17x256x256, .f32⟩
  | .hbm, ⟨4, _⟩ => ⟨S_, .f32⟩
  | .hbm, ⟨5, _⟩ => ⟨S64x17, .f32⟩
  | .hbm, ⟨6, _⟩ => ⟨S_, .f32⟩
  | .hbm, ⟨7, _⟩ => ⟨S64x17, .f32⟩
  | .hbm, ⟨8, _⟩ => ⟨S64x17, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S64x17x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S64x17x256x256_S64x17_d2_3 : S64x17x256x256.ReducesTo [2, 3] S64x17
  h_S_ : 0 < S_.numel
  bcast_S_S64x17 : S_.BroadcastsInDim S64x17 (![] : Fin 0 → Fin S64x17.rank)
  reducesTo_S64x17_S_d0_1 : S64x17.ReducesTo [0, 1] S_

variable [Facts₀]

class Facts : Prop extends Facts₀ where

variable [Facts]
-- ==== Proof.Pieces.lean ====
/-
  What one grid point leaves behind.

  The kernel keeps a one-element accumulator across its 32 grid points. At every point it adds to the
  accumulator the sum of squared differences of the point's two input blocks; at the first point it clears the
  accumulator first; at the last point it also copies the accumulator into the output block. Each of these
  stores covers its one-element buffer whole, so what a buffer holds after the point is the last store's value:
  the accumulator's update (the payload `k0_pay2` of the two blocks and the accumulator read before it), applied
  to the cleared value at the first point and to the carried value at the others. This holds for any float values.
-/
import proofs.«142123_j30537217474919_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Zero offsets, on the accumulator's two axes and on a block's four. -/
theorem off2 : (![0, 0] : Fin 2 → Nat) = fun _ => 0 := funext fun a => by fin_cases a <;> rfl
theorem off4 : (![0, 0, 0, 0] : Fin 4 → Nat) = fun _ => 0 := funext fun a => by fin_cases a <;> rfl

/-- A middle point (neither first nor last): the accumulator, found at `acc`, is left at its update. -/
theorem acc_middle (c : Dev nD) (i : grid0.Coords) (a1 : Memref sig .tc .vmem S2x17x256x256 .f32) (h1 : a1.IsWhole)
    (a2 : Memref sig .tc .vmem S2x17x256x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2x17x256x256 .f32) (acc : Vec F S1x1 .f32) :
    sout0_B_0 c i a1 h1 a2 h2 a3 h3 a4 h4 hc0 hc1 x0 x1 acc = k0_pay2 x0 x1 acc := by
  unfold sout0_B_0
  rw [View.read_writes_eq_canon _ _ _ (scover0_B_0 c i a1 h1 a2 h2 a3 h3 a4 h4 hc0 hc1 x0 x1 acc)]
  unfold kernelRun0_B
  dsimp only
  rw [View.canon_unit_zero off2]
  simp only [View.readAt_eq_ld, h1.read_unread, h2.read_unread, h4.read_unread,
    View.ld_unit_zero (S := S2x17x256x256) off4, View.ld_unit_zero (S := S1x1) off2]

/-- The last point: the accumulator is left at its update as well … -/
theorem acc_last (c : Dev nD) (i : grid0.Coords) (a1 : Memref sig .tc .vmem S2x17x256x256 .f32) (h1 : a1.IsWhole)
    (a2 : Memref sig .tc .vmem S2x17x256x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2x17x256x256 .f32) (acc : Vec F S1x1 .f32) :
    sout0_C_0 c i a1 h1 a2 h2 a3 h3 a4 h4 hc0 hc1 x0 x1 acc = k0_pay2 x0 x1 acc := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero (S := S1x1) off2]
  simp only [View.readAt_eq_ld, h1.read_unread, h2.read_unread, h4.read_unread,
    View.ld_unit_zero (S := S2x17x256x256) off4, View.ld_unit_zero (S := S1x1) off2]

/-- … and the output block receives the same value, read back from the accumulator just stored. -/
theorem out_last (c : Dev nD) (i : grid0.Coords) (a1 : Memref sig .tc .vmem S2x17x256x256 .f32) (h1 : a1.IsWhole)
    (a2 : Memref sig .tc .vmem S2x17x256x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2x17x256x256 .f32) (acc : Vec F S1x1 .f32) :
    out0_C_2 c i a1 h1 a2 h2 a3 h3 a4 h4 hc0 hc1 x0 x1 acc = k0_pay2 x0 x1 acc := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero (S := S1x1) off2, View.readCov_unit_zero (S := S1x1) _ off2]
  simp only [View.readAt_eq_ld, h1.read_unread, h2.read_unread, h4.read_unread,
    View.ld_unit_zero (S := S2x17x256x256) off4, View.ld_unit_zero (S := S1x1) off2]

/-- The first point: the accumulator is cleared, read back, and left at the update of the cleared value. -/
theorem acc_first (c : Dev nD) (i : grid0.Coords) (a1 : Memref sig .tc .vmem S2x17x256x256 .f32) (h1 : a1.IsWhole)
    (a2 : Memref sig .tc .vmem S2x17x256x256 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2x17x256x256 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) off2, View.readCov_unit_zero (S := S1x1) _ off2]
  simp only [View.readAt_eq_ld, h1.read_unread, h2.read_unread,
    View.ld_unit_zero (S := S2x17x256x256) off4]

end Cert.KernelIdeal.Pieces

end
-- ==== Proof.Payload.lean ====
/-
  The accumulator's update, read at the ideal values.

  The update reshapes the block of squared differences to [1, 2, 17, 256, 256], sums it over its last four
  axes into a one-element vector, takes that element out, and adds it to the accumulator. On the extended reals
  a sum into a shape of unit axes is the sum over every index of the source, and a reshape only renames the
  indices, so the update is: the accumulator plus the sum, over the block, of the squared differences.
-/
import proofs.«142123_j30537217474919_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The sum of squared differences of two blocks, on the extended reals. -/
def blockSq (x0 x1 : FVec Ideal S2x17x256x256 .f32) : EReal :=
  ∑ z : S2x17x256x256.Idx, (x0 z - x1 z) * (x0 z - x1 z)

/-- The update adds the block's sum of squared differences to the accumulator. -/
theorem update_apply (x0 x1 : FVec Ideal S2x17x256x256 .f32) (acc : FVec Ideal S1x1 .f32) (y : S1x1.Idx) :
    k0_pay2 (F := Ideal) x0 x1 acc y = acc y + blockSq x0 x1 := by
  unfold k0_pay2 blockSq
  dsimp only
  rw [shapeCast_self, ValueIdx.addf_apply, ValueIdx.broadcast_apply]
  refine congrArg (fun e => acc y + e) ?_
  unfold extractAt shapeCast
  refine (Ideal.multiReduction_add_total _ _ _ (fun b => by fin_cases b; rfl) _ _ _).trans ?_
  refine (Equiv.sum_comp (Shape.reshapeEquiv shapeCasts_S2x17x256x256_S1x2x17x256x256)
    (fun z => mulf (subf x0 x1) (subf x0 x1) z)).trans ?_
  exact Finset.sum_congr rfl fun z _ => rfl

/-- The cleared accumulator holds zero. -/
theorem cleared_apply (y : S1x1.Idx) : k0_pay1 (F := Ideal) y = 0 := by
  unfold k0_pay1
  rw [shapeCast_self]
  exact Ideal.ofBits_zero_f32

end Cert.KernelIdeal.Payload

end
-- ==== Proof.Accum.lean ====
/-
  The accumulator after each grid point, at the ideal values.

  Write sₜ for the sum of squared differences of the two input blocks at grid point t. The first point clears
  the accumulator and adds s₀; every later point adds its sₜ to what the point before left. So after point n the
  accumulator holds s₀ + s₁ + … + sₙ — by induction on the point, never by listing the 32 points — and the
  last point hands the same value to the output block.
-/
import proofs.«142123_j30537217474919_1_alg».proof.Proof.Pieces
import proofs.«142123_j30537217474919_1_alg».proof.Proof.Payload

noncomputable section

namespace Cert.KernelIdeal.Accum

open Cert.KernelIdeal Cert.KernelIdeal.Gen Idealize.ShloMosaic Idealize.ShloMosaic.TcCoe Idealize.SL.Sem
open Cert.KernelIdeal.Payload (blockSq)

variable (m : (ℓ : Loc nD τ sig) → Buf (Elt Ideal) ℓ)

/-- The two input blocks at a grid point, as vectors of the block's literal shape. -/
abbrev blk0 (c : Dev nD) (t : Fin cfg0.N) : FVec Ideal S2x17x256x256 .f32 := iblk m c 0 t
abbrev blk1 (c : Dev nD) (t : Fin cfg0.N) : FVec Ideal S2x17x256x256 .f32 := iblk m c 1 t

/-- sₜ: the sum of squared differences of the blocks at point `t` (zero past the last point). -/
def term (c : Dev nD) (t : ℕ) : EReal :=
  if h : t < cfg0.N then blockSq (blk0 m c ⟨t, h⟩) (blk1 m c ⟨t, h⟩) else 0

theorem term_of_lt (c : Dev nD) (t : ℕ) (h : t < cfg0.N) :
    term m c t = blockSq (blk0 m c ⟨t, h⟩) (blk1 m c ⟨t, h⟩) := dif_pos h

/-- After point `n` the accumulator holds s₀ + … + sₙ. -/
theorem acc_eq (c : Dev nD) : ∀ (n : ℕ) (h : n < cfg0.N),
    (outsAt0 m c n h).2 = fun _ => ∑ t ∈ Finset.range (n + 1), term m c t
  | 0, h => by
    rw [outsAt0_A m c ⟨0, h⟩ rfl (by dsimp only; omega)]
    dsimp only
    rw [Pieces.acc_first]
    funext y
    rw [Payload.update_apply (blk0 m c ⟨0, h⟩) (blk1 m c ⟨0, h⟩) _ y, Payload.cleared_apply, zero_add,
      Finset.sum_range_one, term_of_lt m c 0 h]
  | n + 1, h => by
    have hN : cfg0.N = 32 := N_0
    have ih := acc_eq c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [Pieces.acc_last]
      funext y
      rw [Payload.update_apply (blk0 m c ⟨n + 1, h⟩) (blk1 m c ⟨n + 1, h⟩) _ y, Finset.sum_range_succ,
        term_of_lt m c (n + 1) h]
      exact congrArg (fun e => e + blockSq (blk0 m c ⟨n + 1, h⟩) (blk1 m c ⟨n + 1, h⟩)) (congrFun ih y)
    · rw [outsAt0_B m c ⟨n + 1, h⟩ h0 h1]
      dsimp only
      rw [Pieces.acc_middle]
      funext y
      rw [Payload.update_apply (blk0 m c ⟨n + 1, h⟩) (blk1 m c ⟨n + 1, h⟩) _ y, Finset.sum_range_succ,
        term_of_lt m c (n + 1) h]
      exact congrArg (fun e => e + blockSq (blk0 m c ⟨n + 1, h⟩) (blk1 m c ⟨n + 1, h⟩)) (congrFun ih y)

/-- At the last point the output block receives what the accumulator is left at. -/
theorem out_eq_acc (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  rw [Pieces.out_last, Pieces.acc_last]

end Cert.KernelIdeal.Accum

end
-- ==== Proof.Final.lean ====
/-
  The output array after the grid.

  The output window's one block is the whole [1, 1] array, and only the last grid point writes it back. What it
  writes is the accumulator after the last point: the sum s₀ + … + s₃₁ of the 32 blocks' sums of squared
  differences. So the array ends holding that sum at its one entry.
-/
import proofs.«142123_j30537217474919_1_alg».proof.Proof.Accum

noncomputable section

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- s₀ + … + s₃₁. -/
def gridSum (c : Dev nD) : EReal := ∑ t ∈ Finset.range 32, Accum.term m c t

/-- The output array holding the grid's sum at its one entry. -/
abbrev outArr (c : Dev nD) : Buf (Elt Ideal) ((c : Thread nD τ).loc main_v0) := fun _ => gridSum m c

/-- The last grid point. -/
abbrev tLast : Fin cfg0.N := ⟨31, by rw [show cfg0.N = 32 from N_0]; decide⟩

/-- The one block of the output window sits at offset zero on both axes. -/
theorem lastOffsets : (fun a => win0_2.index tLast a * main_v0.ty.shape.size a) = fun _ => 0 :=
  funext fun a => by fin_cases a <;> decide

/-- The only write-back, at the last point, writes the grid's sum: the block is the whole array. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 32 := N_0
  have h31 : t.val % 32 = 31 := (flush0_2 t).mp hf
  have ht : t.val = 31 := by have := t.isLt; omega
  obtain rfl : t = tLast := Fin.ext ht
  show (cfg0.win 2).cut (grid0.coords tLast) ((dats m 0 c).after 2 tLast) = _
  rw [after0_2, Accum.out_eq_acc m c tLast (by decide) (by decide), Accum.acc_eq m c tLast.val tLast.isLt]
  exact (Memref.read_access_unit_zero (Elt Ideal) main_v0 lastOffsets
    (fun a => by rw [congrFun lastOffsets a]; simp) (outArr m c)).symm

/-- Every index of the [1, 1] array lies in that block, so the array ends holding the grid's sum. -/
theorem final_out (c : Dev nD) : (dats m 0 c).arrAt 2 cfg0.N = outArr m c :=
  (dats m 0 c).arrAt_eq_of_cover 2 (outArr m c) (flushed_eq m c) fun i =>
    ⟨tLast, (flush0_2 tLast).mpr (by decide), by
      show i ∈ ((View.whole main_v0).slice (win0_2.rect tLast)).set
      rw [View.set_slice_whole, Rect.mem_set_unit]
      intro a
      have b0 : (i 0 : Nat) < 1 := (i 0).isLt
      have b1 : (i 1 : Nat) < 1 := (i 1).isLt
      have o0 : win0_2.index tLast 0 * win0_2.size 0 = 0 := by decide +kernel
      have o1 : win0_2.index tLast 1 * win0_2.size 1 = 0 := by decide +kernel
      have s0 : win0_2.xsize (grid0.coords tLast) 0 = 1 := by decide +kernel
      have s1 : win0_2.xsize (grid0.coords tLast) 1 = 1 := by decide +kernel
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [o0, s0]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [o1, s1]; omega⟩

end Cert.KernelIdeal.Final

end
-- ==== Proof.Blocks.lean ====
/-
  The batch axis cut into pairs.

  An index (b, j, h, w) of a [64, 17, 256, 256] array lies in exactly one of the 32 blocks of two consecutive
  batch entries: block t = b / 2 holds it at (b % 2, j, h, w). So a sum over the whole array, in any commutative
  additive monoid, is the sum over the 32 blocks of each block's sum. No program is mentioned here.
-/
import Idealize.ShloMosaic.Lib.ValueIdx

namespace Cert.Blocks

open Idealize.ShloMosaic Idealize.ShloMosaic.ValueIdx
open scoped BigOperators

/-- The whole array's shape and one block's. -/
abbrev Arr : Shape := ⟨4, ![64, 17, 256, 256]⟩
abbrev Blk : Shape := ⟨4, ![2, 17, 256, 256]⟩

/-- The array index of entry `(p, j, h, w)` of block `t`: batch entry `2 t + p`. -/
def entry (t : Fin 32) (p : Fin 2) (j : Fin 17) (h w : Fin 256) : Arr.Idx :=
  ix4 (n0 := 64) (n1 := 17) (n2 := 256) (n3 := 256) ⟨2 * t.val + p.val, by omega⟩ j h w

/-- The same from a block index. -/
def blockIdx (t : Fin 32) (y : Blk.Idx) : Arr.Idx := entry t (y 0) (y 1) (y 2) (y 3)

theorem blockIdx_val0 (t : Fin 32) (y : Blk.Idx) : (blockIdx t y 0).val = 2 * t.val + (y 0).val := rfl
theorem blockIdx_val1 (t : Fin 32) (y : Blk.Idx) : (blockIdx t y 1).val = (y 1).val := rfl
theorem blockIdx_val2 (t : Fin 32) (y : Blk.Idx) : (blockIdx t y 2).val = (y 2).val := rfl
theorem blockIdx_val3 (t : Fin 32) (y : Blk.Idx) : (blockIdx t y 3).val = (y 3).val := rfl

/-- Every array index is an entry of exactly one block. -/
theorem blockIdx_bijective : Function.Bijective (fun p : Fin 32 × Blk.Idx => blockIdx p.1 p.2) := by
  constructor
  · rintro ⟨t, y⟩ ⟨t', y'⟩ h
    have e0 : 2 * t.val + (y 0).val = 2 * t'.val + (y' 0).val := congrArg (fun i : Arr.Idx => (i 0).val) h
    have e1 : (y 1).val = (y' 1).val := congrArg (fun i : Arr.Idx => (i 1).val) h
    have e2 : (y 2).val = (y' 2).val := congrArg (fun i : Arr.Idx => (i 2).val) h
    have e3 : (y 3).val = (y' 3).val := congrArg (fun i : Arr.Idx => (i 3).val) h
    have b0 : (y 0).val < 2 := (y 0).isLt
    have b0' : (y' 0).val < 2 := (y' 0).isLt
    have ht : t = t' := Fin.ext (by omega)
    have hy : y = y' := funext fun a => Fin.ext (by
      match a with
      | ⟨0, _⟩ => show (y 0).val = (y' 0).val; omega
      | ⟨1, _⟩ => exact e1
      | ⟨2, _⟩ => exact e2
      | ⟨3, _⟩ => exact e3)
    rw [ht, hy]
  · intro i
    have b0 : (i 0).val < 64 := (i 0).isLt
    refine ⟨(⟨(i 0).val / 2, by omega⟩,
      ix4 (n0 := 2) (n1 := 17) (n2 := 256) (n3 := 256) ⟨(i 0).val % 2, by omega⟩ (i 1) (i 2) (i 3)), ?_⟩
    funext a
    apply Fin.ext
    match a with
    | ⟨0, _⟩ => show 2 * ((i 0).val / 2) + (i 0).val % 2 = (i 0).val; omega
    | ⟨1, _⟩ => rfl
    | ⟨2, _⟩ => rfl
    | ⟨3, _⟩ => rfl

/-- A sum over the array is the sum over the 32 blocks of each block's sum. -/
theorem sum_blocks {M : Type*} [AddCommMonoid M] (q : Arr.Idx → M) :
    ∑ t : Fin 32, ∑ y : Blk.Idx, q (blockIdx t y) = ∑ i : Arr.Idx, q i := by
  rw [← Fintype.sum_prod_type']
  exact blockIdx_bijective.sum_comp q

end Cert.Blocks
-- ==== Proof.BlockRead.lean ====
/-
  An input block read at an index.

  At grid point t each input window holds the two consecutive batch entries 2 t and 2 t + 1 of its argument
  array, whole along the other three axes: element (p, j, h, w) of the block is element (2 t + p, j, h, w) of
  the array. The block offsets are the index maps' values times the block sizes, decided once over the grid.
-/
import proofs.«142123_j30537217474919_1_alg».proof.Proof.Gen.KernelIdeal.Frame.Runs
import proofs.«142123_j30537217474919_1_alg».proof.Proof.Blocks
import Idealize.ShloMosaic.Lib.Pipeline.Value

noncomputable section

namespace Cert.KernelIdeal.BlockRead

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Both input windows step along the batch axis only. -/
theorem index0 : ∀ t : Fin cfg0.N, win0_0.index t 0 = t.val ∧ win0_0.index t 1 = 0 ∧ win0_0.index t 2 = 0
    ∧ win0_0.index t 3 = 0 :=
  (by decide +kernel : ∀ t : Fin grid0.N, win0_0.index t 0 = t.val ∧ win0_0.index t 1 = 0 ∧ win0_0.index t 2 = 0
    ∧ win0_0.index t 3 = 0)
theorem index1 : ∀ t : Fin cfg0.N, win0_1.index t 0 = t.val ∧ win0_1.index t 1 = 0 ∧ win0_1.index t 2 = 0
    ∧ win0_1.index t 3 = 0 :=
  (by decide +kernel : ∀ t : Fin grid0.N, win0_1.index t 0 = t.val ∧ win0_1.index t 1 = 0 ∧ win0_1.index t 2 = 0
    ∧ win0_1.index t 3 = 0)

/-- The grid point as one of the 32 batch pairs. -/
abbrev pair (t : Fin cfg0.N) : Fin 32 := Fin.cast N_0 t

/-- The first argument's block at point `t`, at `z`, is the argument at batch pair `t`'s entry `z`. -/
theorem block0_apply (c : Dev nD) (t : Fin cfg0.N) (z : S2x17x256x256.Idx) :
    (iblk m c 0 t : Vec F S2x17x256x256 .f32) z
      = m ((c : Thread nD τ).loc main_arg0) (Blocks.blockIdx (pair t) z) := by
  obtain ⟨i0, i1, i2, i3⟩ := index0 t
  unfold iblk
  rw [View.read_apply]
  show V m c main_arg0 _ = m (c.tc.loc main_arg0) _
  rw [V_main_arg0]
  congr 1
  funext a
  apply Fin.ext
  match a with
  | ⟨0, _⟩ => show win0_0.index t 0 * 2 + 1 * (z 0).val = 2 * t.val + (z 0).val; rw [i0]; omega
  | ⟨1, _⟩ => show win0_0.index t 1 * 17 + 1 * (z 1).val = (z 1).val; rw [i1]; omega
  | ⟨2, _⟩ => show win0_0.index t 2 * 256 + 1 * (z 2).val = (z 2).val; rw [i2]; omega
  | ⟨3, _⟩ => show win0_0.index t 3 * 256 + 1 * (z 3).val = (z 3).val; rw [i3]; omega

/-- The second argument's block likewise. -/
theorem block1_apply (c : Dev nD) (t : Fin cfg0.N) (z : S2x17x256x256.Idx) :
    (iblk m c 1 t : Vec F S2x17x256x256 .f32) z
      = m ((c : Thread nD τ).loc main_arg1) (Blocks.blockIdx (pair t) z) := by
  obtain ⟨i0, i1, i2, i3⟩ := index1 t
  unfold iblk
  rw [View.read_apply]
  show V m c main_arg1 _ = m (c.tc.loc main_arg1) _
  rw [V_main_arg1]
  congr 1
  funext a
  apply Fin.ext
  match a with
  | ⟨0, _⟩ => show win0_1.index t 0 * 2 + 1 * (z 0).val = 2 * t.val + (z 0).val; rw [i0]; omega
  | ⟨1, _⟩ => show win0_1.index t 1 * 17 + 1 * (z 1).val = (z 1).val; rw [i1]; omega
  | ⟨2, _⟩ => show win0_1.index t 2 * 256 + 1 * (z 2).val = (z 2).val; rw [i2]; omega
  | ⟨3, _⟩ => show win0_1.index t 3 * 256 + 1 * (z 3).val = (z 3).val; rw [i3]; omega

end Cert.KernelIdeal.BlockRead

end
-- ==== Proof.GridSum.lean ====
/-
  The grid's sum is the sum over the whole array.

  Block t's sum sₜ runs over the entries (2 t + p, j, h, w) of the two arguments, and the 32 blocks partition
  the array's indices, so s₀ + … + s₃₁ is the sum over every index (b, j, h, w) of the squared difference of
  the arguments there.
-/
import proofs.«142123_j30537217474919_1_alg».proof.Proof.Final
import proofs.«142123_j30537217474919_1_alg».proof.Proof.BlockRead

noncomputable section

namespace Cert.KernelIdeal.GridSum

open Cert.KernelIdeal Cert.KernelIdeal.Gen Idealize.ShloMosaic Idealize.ShloMosaic.TcCoe Idealize.SL.Sem

variable (m : (ℓ : Loc nD τ sig) → Buf (Elt Ideal) ℓ)

/-- The two argument arrays, as vectors of the array's literal shape. -/
abbrev arg0 (c : Dev nD) : FVec Ideal S64x17x256x256 .f32 := m ((c : Thread nD τ).loc main_arg0)
abbrev arg1 (c : Dev nD) : FVec Ideal S64x17x256x256 .f32 := m ((c : Thread nD τ).loc main_arg1)

/-- The squared difference of two arrays at an index. -/
def sqDiff (x0 x1 : FVec Ideal S64x17x256x256 .f32) (i : S64x17x256x256.Idx) : EReal :=
  (x0 i - x1 i) * (x0 i - x1 i)

/-- Block `t`'s sum is the sum of the squared differences over batch pair `t`'s entries. -/
theorem term_eq (c : Dev nD) (t : Fin 32) :
    Accum.term m c t.val = ∑ z : Blocks.Blk.Idx, sqDiff (arg0 m c) (arg1 m c) (Blocks.blockIdx t z) := by
  have ht : t.val < cfg0.N := by rw [show cfg0.N = 32 from N_0]; exact t.isLt
  rw [Accum.term_of_lt m c t.val ht]
  unfold Payload.blockSq Accum.blk0 Accum.blk1 sqDiff arg0 arg1
  refine Finset.sum_congr rfl fun z _ => ?_
  rw [BlockRead.block0_apply m c ⟨t.val, ht⟩ z, BlockRead.block1_apply m c ⟨t.val, ht⟩ z]
  rfl

/-- The grid's sum is the sum over the whole array. -/
theorem gridSum_eq (c : Dev nD) :
    Final.gridSum m c = ∑ i : S64x17x256x256.Idx, sqDiff (arg0 m c) (arg1 m c) i := by
  unfold Final.gridSum
  rw [Finset.sum_range (fun t => Accum.term m c t), ← Blocks.sum_blocks (sqDiff (arg0 m c) (arg1 m c))]
  exact Finset.sum_congr rfl fun t _ => term_eq m c t

end Cert.KernelIdeal.GridSum

end
-- ==== Proof.Tail.lean ====
/-
  After the grid: the program's last two host operations.

  The program reshapes the [1, 1] output array to a scalar and multiplies it by its one constant. Its result is
  therefore that product of whatever the output array holds once the grid has run. This holds for any float
  values.
-/
import proofs.«142123_j30537217474919_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The result buffer is no array of the grid's windows: the frame run states its final contents. -/
theorem result_mem_rest : main_v2 ∈ Pipeline.restRefs sig (cfgs 0).spec := by decide

/-- The host operations after the grid find the output array at what the grid left in it. -/
theorem out_after_grid (c : Dev nD) :
    Pipeline.withArrays (cfgs 0).spec c (V0 m c) (fun w => (dats m 0 c).arrAt w (cfgs 0).N) (Proc.tc.devRef main_v0)
      = (dats m 0 c).arrAt 2 cfg0.N :=
  Pipeline.withArrays_arr spec0 launch0.win.arr_inj c _ _ 2

/-- The program's result: the output array after the grid, reshaped to a scalar, times the constant. -/
theorem result_eq (c : Dev nD) :
    Pipeline.afterTail₀ cfgs (dats m) 0 (V0 m) [hostOps1] c main_v2
      = mulf (shapeCast S_ ((dats m 0 c).arrAt 2 cfg0.N) shapeCasts_S1x1_S_)
          (constant (F := F) S_ .f32 0x34800000#32) := by
  unfold Pipeline.afterTail₀
  show StableHlo.after hostOps1 _ (Proc.devRef .tc main_v2) = _
  after_results
  rw [out_after_grid m c]
  rfl

end Cert.KernelIdeal.Tail

end
-- ==== Proof.Consts.lean ====
/-
  The float constants the two programs spell, as the extended reals their bit patterns denote at the ideal
  values: the reference's divisors 65536 (the number of pixels of one heat map, 256 · 256) and 64 (the batch
  size), its weight 1, and the kernel's single scale 2⁻²² = 1 / (64 · 65536), a power of two and therefore an
  exact binary32 number. All are unfolded here, once.
-/
import Idealize.ShloMosaic.PureOps.Ideal

noncomputable section

namespace Cert.Consts

open Idealize.ShloMosaic

/-- The pattern of `65536.0` denotes the real 65536. -/
theorem ofBits_65536 : Ideal.ofBits .f32 0x47800000#32 = ((65536 : ℝ) : EReal) := by
  simp [Ideal.ofBits, Ideal.ieee, -EReal.coe_mul]; norm_num

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `1.0` denotes 1. -/
theorem ofBits_one : Ideal.ofBits .f32 0x3F800000#32 = 1 := by
  simp [Ideal.ofBits, Ideal.ieee, -EReal.coe_mul]; norm_num

/-- The kernel's scale, printed `2.38418579E-7`, denotes exactly 2⁻²² = 1 / 4194304. -/
theorem ofBits_inv : Ideal.ofBits .f32 0x34800000#32 = ((1 / 4194304 : ℝ) : EReal) := by
  simp [Ideal.ofBits, Ideal.ieee, -EReal.coe_mul]; norm_num

end Cert.Consts

end
-- ==== Proof.Spec.lean ====
/-
  The function both programs compute.

  For two arrays x₀, x₁ of shape [64, 17, 256, 256] over the extended reals:

      loss x₀ x₁ = ( Σ over every index (b, j, h, w) of (x₀ − x₁)² ) · 2⁻²²,

  the sum of squared differences scaled by 1 / (64 · 65536) = 1 / 4194304. The kernel reaches it by adding up
  32 blocks of two batch entries each and scaling once; the reference by averaging each heat map's squares,
  adding the 64 · 17 averages, and dividing by the batch size. No program is mentioned here.
-/
import proofs.«142123_j30537217474919_1_alg».proof.Proof.Blocks

noncomputable section

namespace Cert.Spec

open Idealize.ShloMosaic
open scoped BigOperators

/-- The loss of two arrays over the extended reals. -/
def loss (x0 x1 : Blocks.Arr.Idx → EReal) : EReal :=
  (∑ i : Blocks.Arr.Idx, (x0 i - x1 i) * (x0 i - x1 i)) * ((1 / 4194304 : ℝ) : EReal)

end Cert.Spec

end
-- ==== Proof.KernelRun.lean ====
/-
  The kernel's run, at the ideal values, read as the loss.

  After the grid the output array holds s₀ + … + s₃₁, which is the sum of squared differences over the whole
  array; the host reshapes it to a scalar and multiplies by the constant 2⁻²². So the program's result is the
  loss of its two arguments, and the arguments end as they began.
-/
import proofs.«142123_j30537217474919_1_alg».proof.Proof.GridSum
import proofs.«142123_j30537217474919_1_alg».proof.Proof.Tail
import proofs.«142123_j30537217474919_1_alg».proof.Proof.Consts
import proofs.«142123_j30537217474919_1_alg».proof.Proof.Spec

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Cert.KernelIdeal.GridSum (arg0 arg1)

variable (m : (ℓ : Loc nD τ sig) → Buf (Elt Ideal) ℓ) (ρ : Dev nD → PrngReg)

/-- The program's result buffer holding the loss of the two arguments. -/
abbrev lossBuf (c : Dev nD) : Buf (Elt Ideal) ((c : Thread nD τ).loc main_v2) :=
  fun _ => Spec.loss (arg0 m c) (arg1 m c)

/-- The result after the host operations that follow the grid is the loss. -/
theorem value (c : Dev nD) :
    Pipeline.afterTail₀ cfgs (dats m) 0 (V0 m) [hostOps1] c main_v2 = lossBuf m c := by
  rw [Tail.result_eq m c, Final.final_out m c]
  funext i
  rw [ValueIdx.mulf_apply]
  unfold shapeCast
  show Final.gridSum m c * Ideal.ofBits .f32 0x34800000#32 = _
  rw [GridSum.gridSum_eq, Consts.ofBits_inv]
  rfl

/-- Every weakly fair execution terminates with the result at the loss and the arguments unchanged. -/
theorem run : θ_run defs (onTc (τ := τ) (main (F := Ideal))) ⟨m, fun _ => 0, ρ⟩ fun r => ∀ c : Dev nD,
      r.2.mem ((c : Thread nD τ).loc main_v2) = lossBuf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 Tail.result_mem_rest).trans (value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.SumLaws.lean ====
/-
  Finite sums of nonnegative extended reals.

  On the extended reals multiplication does not distribute over addition in general (⊤ + ⊥ is ⊥, so
  (⊤ + ⊥) · c and ⊤ · c + ⊥ · c differ), but it does on nonnegative terms. A square d · d is nonnegative for
  every extended real d (⊥ · ⊥ = ⊤ · ⊤ = ⊤), so sums of squares may be scaled term by term, and a scale may be
  pulled out of a sum of such sums. This module states exactly that, over abstract finite index sets, with no
  program in sight.
-/
import Mathlib

namespace Cert.SumLaws

open scoped BigOperators

/-- The square of an extended real is nonnegative: on the reals it is a square, and ⊥ · ⊥ = ⊤ · ⊤ = ⊤. -/
theorem mul_self_nonneg (d : EReal) : 0 ≤ d * d := by
  induction d using EReal.rec with
  | bot => simp
  | top => simp
  | coe r => exact_mod_cast _root_.mul_self_nonneg r

/-- A finite sum of nonnegative extended reals, scaled, is the sum of the scaled terms. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- A sum of per-fibre sums of nonnegative terms, each fibre's sum scaled by c, is the total sum scaled by c:
    the scale leaves the outer sum, and the fibres of a map partition the index set. -/
theorem sum_fibres_mul {ι κ : Type*} [Fintype ι] [Fintype κ] [DecidableEq κ] (g : ι → κ) (q : ι → EReal)
    (hq : ∀ i, 0 ≤ q i) (c : EReal) :
    ∑ j : κ, (∑ i ∈ Finset.univ.filter (fun i => g i = j), q i) * c = (∑ i : ι, q i) * c := by
  rw [← sum_mul_of_nonneg Finset.univ _ (fun j _ => Finset.sum_nonneg fun i _ => hq i) c,
    Finset.sum_fiberwise]

end Cert.SumLaws
-- ==== Proof.RefSide.lean ====
/-
  The reference, at the ideal values, as one formula.

  The reference squares the difference of its two arguments, sums each [256, 256] heat map (the pixels that
  drop to the map's index (b, j)), divides each map's sum by 65536, sums the 64 · 17 quotients, divides by 64
  and multiplies by 1. Every map's sum is a sum of squares, hence nonnegative, so the division by 65536 may be
  taken out of the outer sum; the maps' pixel sets partition the array, so the sum of the maps' sums is the sum
  over the whole array; and the two divisions compose to the single factor 1 / (65536 · 64) = 1 / 4194304.
-/
import proofs.«142123_j30537217474919_1_alg».proof.Proof.Gen.ReferenceIdeal.Read
import proofs.«142123_j30537217474919_1_alg».proof.Proof.SumLaws
import proofs.«142123_j30537217474919_1_alg».proof.Proof.Consts
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx

/-- The per-map sums: entry (b, j) is the sum, over the pixels of map (b, j), of the squared difference (the
    initial value of the sum is zero). -/
theorem mapSum_apply (x0 x1 : FVec Ideal S64x17x256x256 .f32) (j : S64x17.Idx) :
    val_main_v2 (F := Ideal) x0 x1 j
      = ∑ i ∈ Finset.univ.filter (fun i : S64x17x256x256.Idx => reducesTo_S64x17x256x256_S64x17_d2_3.drop i = j),
          (x0 i - x1 i) * (x0 i - x1 i) := by
  unfold val_main_v2
  simp only [Host.reduceAdd, Ideal.hostReduceAdd_def]
  unfold Ideal.hostReduceAdd
  rw [val_main_cst_apply, Ideal.ofBits_def, Ideal.ofBits_zero_f32, zero_add]
  exact Finset.sum_congr rfl fun i _ => rfl

/-- The reference's result: the sum over the whole array of the squared differences, times 1 / 4194304. -/
theorem result_apply (x0 x1 : FVec Ideal S64x17x256x256 .f32) (i : S_.Idx) :
    val_main_v7 (F := Ideal) x0 x1 i
      = (∑ k : S64x17x256x256.Idx, (x0 k - x1 k) * (x0 k - x1 k)) * ((1 / 4194304 : ℝ) : EReal) := by
  rw [val_main_v7_apply, val_main_v6_apply, val_main_v5_apply, val_main_cst_3_apply, val_main_cst_2_apply,
    val_main_cst_1_apply]
  simp only [val_main_v4_apply, val_main_v3_apply, val_main_cst_0_apply, mapSum_apply]
  simp only [Ideal.mulf_def, Ideal.hostDivf_def, Ideal.ofBits_def, Ideal.ofBits_zero_f32, zero_add,
    Consts.ofBits_65536, Consts.ofBits_64, Consts.ofBits_one, mul_one,
    Ideal.div_coe (by norm_num : (65536 : ℝ) ≠ 0), Ideal.div_coe (by norm_num : (64 : ℝ) ≠ 0)]
  rw [SumLaws.sum_fibres_mul _ _ (fun k => SumLaws.mul_self_nonneg _), mul_assoc, ← EReal.coe_mul]
  norm_num

end Cert.ReferenceIdeal.RefSide

end
-- ==== Proof.lean ====
/-
  A scalar loss of two [64, 17, 256, 256] arrays, computed two ways.

  The kernel walks the batch axis in 32 blocks of two entries, keeps a one-element accumulator across the grid,
  adds each block's sum of squared differences to it, and after the last block multiplies the total by the
  single constant 2⁻²² = 1 / (64 · 256 · 256). The reference averages the squared differences over each of the
  64 · 17 heat maps (a sum divided by 65536), adds the averages, divides by 64 and multiplies by 1.

  Over the extended reals both are  ( Σ over all indices of (x₀ − x₁)² ) · 2⁻²²:
    * the kernel's 32 block sums add up to the sum over the whole array, because the blocks partition the
      indices and addition is commutative and associative;
    * the reference's division by 65536 leaves the sum over the maps because every map's sum is a sum of
      squares, hence nonnegative, and multiplication distributes over sums of nonnegative extended reals; the
      maps partition the indices; and (1 / 65536) · (1 / 64) = 2⁻²², which the kernel's constant denotes exactly.
  Neither step needs the inputs to be finite.

  The three programs' runs (termination, no fault, arguments unchanged) are the generated frame runs of the two
  kernels and the generated run of the reference; the idealization rewrote nothing.
-/
import proofs.«142123_j30537217474919_1_alg».proof.Defs
import proofs.«142123_j30537217474919_1_alg».proof.Proof.Gen.Kernel
import proofs.«142123_j30537217474919_1_alg».proof.Proof.Gen.Kernel.Skeleton
import proofs.«142123_j30537217474919_1_alg».proof.Proof.Gen.Kernel.Launch
import proofs.«142123_j30537217474919_1_alg».proof.Proof.Gen.Kernel.Points
import proofs.«142123_j30537217474919_1_alg».proof.Proof.Gen.Kernel.Frame
import proofs.«142123_j30537217474919_1_alg».proof.Proof.Gen.KernelIdeal
import proofs.«142123_j30537217474919_1_alg».proof.Proof.Gen.KernelIdeal.Skeleton
import proofs.«142123_j30537217474919_1_alg».proof.Proof.Gen.KernelIdeal.Launch
import proofs.«142123_j30537217474919_1_alg».proof.Proof.Gen.KernelIdeal.Points
import proofs.«142123_j30537217474919_1_alg».proof.Proof.Gen.KernelIdeal.Frame
import proofs.«142123_j30537217474919_1_alg».proof.Proof.Gen.ReferenceIdeal
import proofs.«142123_j30537217474919_1_alg».proof.Proof.Gen.ReferenceIdeal.Run
import proofs.«142123_j30537217474919_1_alg».proof.Proof.Gen.ReferenceIdeal.Read
import proofs.«142123_j30537217474919_1_alg».proof.Proof.Gen.Pre_finite_inputs
import proofs.«142123_j30537217474919_1_alg».proof.Proof.KernelRun
import proofs.«142123_j30537217474919_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel :=
  fun m ρ _ => Cert.Kernel.Gen.frame m ρ

/-- So does the kernel read at the ideal values. -/
theorem frame_kernelIdeal : Cert.frame_KernelIdeal :=
  fun m ρ _ => Cert.KernelIdeal.Gen.frame m ρ

/-- The reference runs and leaves its arguments unchanged: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From arguments that agree, the kernel ends at the loss of its arguments and the reference at the loss of
    its own: the same extended real. -/
theorem algebraic : Cert.algebraic_KernelIdeal_ReferenceIdeal := by
  intro m ρ m' ρ' _ hagree
  refine ⟨fun c => Cert.KernelIdeal.KernelRun.lossBuf m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2]
  funext i
  exact Cert.ReferenceIdeal.RefSide.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
